-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S1024x2048x4x4 : Shape := ⟨4, ![1024, 2048, 4, 4]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S1024x2048x4x4 : S_.BroadcastsInDim S1024x2048x4x4 (![] : Fin 0 → Fin S1024x2048x4x4.rank)
  reducesTo_S1024x2048x4x4_S_d0_1_2_3 : S1024x2048x4x4.ReducesTo [0, 1, 2, 3] S_

variable [Facts]

def fn {F : FTy → Type} [FloatOps F] (main_arg0 : FVec F S1024x8192 .f32) (main_arg1 : FVec F S1024x2048x4x4 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1024x2048x4x4 .f32 := Host.absf main_arg1
  let main_cst_0 : FVec F S_ .f32 := constant S_ .f32 0x7F800000#32
  let main_v5 : FVec F S1024x2048x4x4 .f32 := broadcastInDim S1024x2048x4x4 ![] bcast_S_S1024x2048x4x4 main_cst_0
  let main_v6 : IVec S1024x2048x4x4 1 := cmpf .olt main_v4 main_v5
  let main_c_1 : IVec S_ 1 := constantI S_ 1 1#1
  let main_v7 : IVec S_ 1 := (fun x v => Host.reduce IntOp.andi x v reducesTo_S1024x2048x4x4_S_d0_1_2_3 h_S_) main_v6 main_c_1
  let main_v8 : IVec S_ 1 := andi main_v3 main_v7
  main_v8
-- ==== Kernel.lean ====
abbrev S1024x8192 : Shape := ⟨2, ![1024, 8192]⟩
abbrev S1024x2048x4x4 : Shape := ⟨4, ![1024, 2048, 4, 4]⟩
abbrev S1024x32768 : Shape := ⟨2, ![1024, 32768]⟩
abbrev S256x1024 : Shape := ⟨2, ![256, 1024]⟩
abbrev S256x4096 : Shape := ⟨2, ![256, 4096]⟩
abbrev S256x256x4 : Shape := ⟨3, ![256, 256, 4]⟩
abbrev S256x4x256 : Shape := ⟨3, ![256, 4, 256]⟩
abbrev S256x256x16 : Shape := ⟨3, ![256, 256, 16]⟩
abbrev S256x16x256 : Shape := ⟨3, ![256, 16, 256]⟩
abbrev S256x256 : Shape := ⟨2, ![256, 256]⟩
abbrev S256x1x256 : Shape := ⟨3, ![256, 1, 256]⟩

abbrev nBuf : Space → Nat
  | .hbm => 4
  | .vmem => 6
  | .smem => 0
  | _ => 0

abbrev bufTy : (tb : Table) → Fin (tcTables nBuf tb) → BufTy
  | .hbm, ⟨0, _⟩ => ⟨S1024x8192, .f32⟩
  | .hbm, ⟨1, _⟩ => ⟨S1024x2048x4x4, .f32⟩
  | .hbm, ⟨2, _⟩ => ⟨S1024x32768, .f32⟩
  | .hbm, ⟨3, _⟩ => ⟨S1024x8192, .f32⟩
  | .local _ .vmem, ⟨0, _⟩ => ⟨S256x1024, .f32⟩
  | .local _ .vmem, ⟨1, _⟩ => ⟨S256x1024, .f32⟩
  | .local _ .vmem, ⟨2, _⟩ => ⟨S256x4096, .f32⟩
  | .local _ .vmem, ⟨3, _⟩ => ⟨S256x4096, .f32⟩
  | .local _ .vmem, ⟨4, _⟩ => ⟨S256x1024, .f32⟩
  | .local _ .vmem, ⟨5, _⟩ => ⟨S256x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1024x2048x4x4_S1024x32768 : S1024x2048x4x4.ShapeCasts S1024x32768
  inb_S256x1024_S256x1024_0_0 : ∀ a, (![0, 0] : Fin 2 → Nat) a + S256x1024.size a ≤ S256x1024.size a
  h_S256x1024 : 0 < S256x1024.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x1024_S256x256x4 : S256x1024.ShapeCasts S256x256x4
  transposes_S256x256x4_p0_2_1_S256x4x256 : S256x256x4.Transposes [0, 2, 1] S256x4x256
  shapeCasts_S256x4096_S256x256x16 : S256x4096.ShapeCasts S256x256x16
  transposes_S256x256x16_p0_2_1_S256x16x256 : S256x256x16.Transposes [0, 2, 1] S256x16x256
  slices_S256x16x256_o0_0_0_S256x4x256 : S256x16x256.Slices ![0, 0, 0] S256x4x256
  reduces_S256x4x256_S256x256 : S256x4x256.Reduces [1] S256x256
  shapeCasts_S256x256_S256x1x256 : S256x256.ShapeCasts S256x1x256
  broadcasts_S256x1x256_S256x4x256 : S256x1x256.Broadcasts S256x4x256
  slices_S256x16x256_o0_4_0_S256x4x256 : S256x16x256.Slices ![0, 4, 0] S256x4x256
  slices_S256x16x256_o0_8_0_S256x4x256 : S256x16x256.Slices ![0, 8, 0] S256x4x256
  slices_S256x16x256_o0_12_0_S256x4x256 : S256x16x256.Slices ![0, 12, 0] S256x4x256
  transposes_S256x4x256_p0_2_1_S256x256x4 : S256x4x256.Transposes [0, 2, 1] S256x256x4
  shapeCasts_S256x256x4_S256x1024 : S256x256x4.ShapeCasts S256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x8192.size a
  hwx0_0 : ∀ i : grid0.Coords, EltTy.bits .f32 = 32 ∨ (Rect.block (s := S1024x8192) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S1024x32768.size a
  hwx0_1 : ∀ i : grid0.Coords, EltTy.bits .f32 = 32 ∨ (Rect.block (s := S1024x32768) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x8192.size a
  hwx0_2 : ∀ i : grid0.Coords, EltTy.bits .f32 = 32 ∨ (Rect.block (s := S1024x8192) S256x1024.size (cc0_transform_2 i) (hinb0_2 i)).WholeWords (EltTy.packing .f32)

variable [Facts₀]

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S1024x2048x4x4 : Shape := ⟨4, ![1024, 2048, 4, 4]⟩
abbrev S1024x2048x1x4 : Shape := ⟨4, ![1024, 2048, 1, 4]⟩
abbrev S_ : Shape := ⟨0, ![]⟩
abbrev S1024x2048x4 : Shape := ⟨3, ![1024, 2048, 4]⟩
abbrev S1024x2048x4x1 : Shape := ⟨4, ![1024, 2048, 4, 1]⟩

abbrev nBuf : Space → Nat
  | .hbm => 25
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x2048x4x4, .f32⟩
  | .hbm, ⟨2, _⟩ => ⟨S1024x2048x1x4, .f32⟩
  | .hbm, ⟨3, _⟩ => ⟨S1024x2048x4x4, .f32⟩
  | .hbm, ⟨4, _⟩ => ⟨S1024x2048x4x4, .f32⟩
  | .hbm, ⟨5, _⟩ => ⟨S_, .f32⟩
  | .hbm, ⟨6, _⟩ => ⟨S1024x2048x4x4, .f32⟩
  | .hbm, ⟨7, _⟩ => ⟨S1024x2048x4x4, .f32⟩
  | .hbm, ⟨8, _⟩ => ⟨S_, .f32⟩
  | .hbm, ⟨9, _⟩ => ⟨S1024x2048x4, .f32⟩
  | .hbm, ⟨10, _⟩ => ⟨S_, .f32⟩
  | .hbm, ⟨11, _⟩ => ⟨S1024x2048x4, .f32⟩
  | .hbm, ⟨12, _⟩ => ⟨S1024x2048x4, .f32⟩
  | .hbm, ⟨13, _⟩ => ⟨S1024x2048x4x1, .f32⟩
  | .hbm, ⟨14, _⟩ => ⟨S1024x2048x4x4, .f32⟩
  | .hbm, ⟨15, _⟩ => ⟨S1024x2048x4x4, .f32⟩
  | .hbm, ⟨16, _⟩ => ⟨S1024x2048x4x4, .f32⟩
  | .hbm, ⟨17, _⟩ => ⟨S_, .f32⟩
  | .hbm, ⟨18, _⟩ => ⟨S1024x2048x4, .f32⟩
  | .hbm, ⟨19, _⟩ => ⟨S1024x2048x4x1, .f32⟩
  | .hbm, ⟨20, _⟩ => ⟨S1024x2048x4x4, .f32⟩
  | .hbm, ⟨21, _⟩ => ⟨S1024x2048x4x4, .f32⟩
  | .hbm, ⟨22, _⟩ => ⟨S_, .f32⟩
  | .hbm, ⟨23, _⟩ => ⟨S1024x2048x4, .f32⟩
  | .hbm, ⟨24, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S1024x8192_S1024x2048x1x4 : S1024x8192.ShapeCasts S1024x2048x1x4
  bcast_S1024x2048x1x4_S1024x2048x4x4_0_1_2_3 : S1024x2048x1x4.BroadcastsInDim S1024x2048x4x4 (![0, 1, 2, 3] : Fin 4 → Fin S1024x2048x4x4.rank)
  bcast_S_S1024x2048x4x4 : S_.BroadcastsInDim S1024x2048x4x4 (![] : Fin 0 → Fin S1024x2048x4x4.rank)
  reducesTo_S1024x2048x4x4_S1024x2048x4_d3 : S1024x2048x4x4.ReducesTo [3] S1024x2048x4
  h_S_ : 0 < S_.numel
  bcast_S_S1024x2048x4 : S_.BroadcastsInDim S1024x2048x4 (![] : Fin 0 → Fin S1024x2048x4.rank)
  bcast_S1024x2048x4_S1024x2048x4x1_0_1_2 : S1024x2048x4.BroadcastsInDim S1024x2048x4x1 (![0, 1, 2] : Fin 3 → Fin S1024x2048x4x1.rank)
  bcast_S1024x2048x4x1_S1024x2048x4x4_0_1_2_3 : S1024x2048x4x1.BroadcastsInDim S1024x2048x4x4 (![0, 1, 2, 3] : Fin 4 → Fin S1024x2048x4x4.rank)
  reducesTo_S1024x2048x4x4_S1024x2048x4_d2 : S1024x2048x4x4.ReducesTo [2] S1024x2048x4
  shapeCasts_S1024x2048x4_S1024x8192 : S1024x2048x4.ShapeCasts S1024x8192

variable [Facts₀]

class Facts : Prop extends Facts₀ where

variable [Facts]
-- ==== Proof.Softmax.lean ====
/-
  The scalar mathematics of the certificate, on the extended reals, with no program in sight.

  A "group" is four extended reals `a 0 … a 3` (one softmax group of the layer).  The kernel computes, for the
  entry `c` of a group, `exp (a c · 2) / ∑ c', exp (a c' · 2)`: the softmax of the doubled group with no shift.
  The reference computes the same softmax the numerically careful way: it divides by one half instead of doubling,
  subtracts the group's maximum `M` (a maximum taken from −∞) before exponentiating, and starts its sum from 0:
  `exp (a c / ½ − M) / (0 + ∑ c', exp (a c' / ½ − M))`.  On REAL entries the two agree, because
  `exp (x − M) = exp x / exp M` and the common factor `1 / exp M` cancels between numerator and denominator; this is
  `refTerm_eq_kerTerm`.  (At an infinite entry the shifted form is `⊤ − ⊤`, so finiteness is really used.)
  The second fact, `max4_eq_fold`, is that the running maximum of four values taken pairwise is the maximum folded
  from −∞ over the four.
-/
import Idealize.ShloMosaic.PureOps.Ideal
import Idealize.ShloMosaic.PureOps.Ideal.Laws

noncomputable section

namespace Cert.Softmax

open Idealize.ShloMosaic

/-! ## The four float literals of the two programs -/

/-- `2.0` denotes the real 2. -/
theorem two_val : Ideal.ofBits .f32 0x40000000#32 = ((2 : ℝ) : EReal) := by
  simp [Ideal.ofBits, Ideal.ieee, -EReal.coe_mul]; norm_num

/-- `0.5` denotes the real 1/2. -/
theorem half_val : Ideal.ofBits .f32 0x3F000000#32 = ((1 / 2 : ℝ) : EReal) := by
  simp [Ideal.ofBits, Ideal.ieee, -EReal.coe_mul]; norm_num

/-- The pattern of −∞ denotes `⊥`. -/
theorem ninf_val : Ideal.ofBits .f32 0xFF800000#32 = (⊥ : EReal) := by
  simp [Ideal.ofBits, Ideal.ieee]

/-! ## The two forms of one softmax entry -/

/-- The kernel's entry `c` of the softmax of a doubled group: no shift. -/
def kerTerm (a : Fin 4 → EReal) (c : Fin 4) : EReal :=
  Ideal.div (Ideal.exp (a c * Ideal.ofBits .f32 0x40000000#32))
    (∑ c' : Fin 4, Ideal.exp (a c' * Ideal.ofBits .f32 0x40000000#32))

/-- The reference's shift: the maximum, taken from −∞ twice, of the group divided by one half. -/
def refShift (a : Fin 4 → EReal) : EReal :=
  max (Ideal.ofBits .f32 0xFF800000#32)
    ((Finset.univ : Finset (Fin 4)).fold max (Ideal.ofBits .f32 0xFF800000#32)
      (fun c' => Ideal.div (a c') (Ideal.ofBits .f32 0x3F000000#32)))

/-- The reference's entry `c`: shifted by the maximum, summed from 0. -/
def refTerm (a : Fin 4 → EReal) (c : Fin 4) : EReal :=
  Ideal.div (Ideal.exp (Ideal.div (a c) (Ideal.ofBits .f32 0x3F000000#32) - refShift a))
    (Ideal.ofBits .f32 0x00000000#32
      + ∑ c' : Fin 4, Ideal.exp (Ideal.div (a c') (Ideal.ofBits .f32 0x3F000000#32) - refShift a))

/-! ## Sums and maxima of four reals stay real -/

theorem coe_sum4 (f : Fin 4 → ℝ) : (∑ c : Fin 4, ((f c : ℝ) : EReal)) = ((∑ c : Fin 4, f c : ℝ) : EReal) := by
  simp only [Fin.sum_univ_four, EReal.coe_add]

theorem coe_max (x y : ℝ) : max (x : EReal) (y : EReal) = ((max x y : ℝ) : EReal) :=
  (EReal.coe_strictMono.monotone.map_max).symm

/-- A fold of `max` over four values, from any start. -/
theorem fold_max4 (b : EReal) (s : Fin 4 → EReal) :
    (Finset.univ : Finset (Fin 4)).fold max b s = max b (max (max (max (s 0) (s 1)) (s 2)) (s 3)) := by
  simp only [Fin.univ_succ, Finset.fold_cons, Finset.fold_map, Finset.univ_unique, Finset.fold_singleton]
  show max (s 0) (max (s 1) (max (s 2) (max (s 3) b))) = _
  ac_rfl

/-- The pairwise running maximum of four values is their maximum folded from −∞. -/
theorem max4_eq_fold (s : Fin 4 → EReal) :
    max (max (max (s 0) (s 1)) (s 2)) (s 3)
      = (Finset.univ : Finset (Fin 4)).fold max (Ideal.ofBits .f32 0xFF800000#32) s := by
  rw [fold_max4, ninf_val, bot_sup_eq]

/-! ## The law: on real entries the shifted softmax is the unshifted one -/

/-- For reals: `exp (x c − μ) / ∑ exp (x c' − μ) = exp (x c) / ∑ exp (x c')`. -/
theorem real_shift (x : Fin 4 → ℝ) (μ : ℝ) (c : Fin 4) :
    Real.exp (x c - μ) / (∑ c' : Fin 4, Real.exp (x c' - μ)) = Real.exp (x c) / (∑ c' : Fin 4, Real.exp (x c')) := by
  have hμ : Real.exp μ ≠ 0 := (Real.exp_pos μ).ne'
  have hs : (∑ c' : Fin 4, Real.exp (x c' - μ)) = (∑ c' : Fin 4, Real.exp (x c')) / Real.exp μ := by
    rw [Finset.sum_div]; exact Finset.sum_congr rfl fun c' _ => Real.exp_sub _ _
  rw [hs, Real.exp_sub, div_div_div_cancel_right₀ hμ]

/-- Division of a real by a positive real, on the extended reals. -/
theorem div_coe_coe (x y : ℝ) (hy : 0 < y) : Ideal.div (x : EReal) (y : EReal) = ((x / y : ℝ) : EReal) := by
  rw [Ideal.div_coe hy.ne', ← EReal.coe_mul]; congr 1; ring

theorem refTerm_eq_kerTerm (a : Fin 4 → EReal) (ha : ∀ c, ∃ r : ℝ, a c = (r : EReal)) (c : Fin 4) :
    refTerm a c = kerTerm a c := by
  choose r hr using ha
  obtain rfl : a = fun c => ((r c : ℝ) : EReal) := funext hr
  -- the group divided by one half, and doubled, are the same reals
  have hdiv : ∀ c', Ideal.div ((r c' : ℝ) : EReal) (Ideal.ofBits .f32 0x3F000000#32) = ((r c' * 2 : ℝ) : EReal) := fun c' => by
    rw [half_val, div_coe_coe _ _ (by norm_num)]; congr 1; ring
  have hmul : ∀ c', ((r c' : ℝ) : EReal) * Ideal.ofBits .f32 0x40000000#32 = ((r c' * 2 : ℝ) : EReal) := fun c' => by
    rw [two_val, ← EReal.coe_mul]
  -- the shift is a real
  obtain ⟨μ, hμ⟩ : ∃ μ : ℝ, refShift (fun c => ((r c : ℝ) : EReal)) = (μ : EReal) := by
    refine ⟨max (max (max (r 0 * 2) (r 1 * 2)) (r 2 * 2)) (r 3 * 2), ?_⟩
    unfold refShift
    simp only [hdiv]
    rw [fold_max4, ninf_val, bot_sup_eq, bot_sup_eq, coe_max, coe_max, coe_max]
  unfold refTerm kerTerm
  simp only [hdiv, hmul, hμ]
  rw [Ideal.ofBits_zero_f32, zero_add]
  simp only [← EReal.coe_sub, Ideal.exp_coe, coe_sum4]
  have hpos : ∀ y : Fin 4 → ℝ, 0 < ∑ c' : Fin 4, Real.exp (y c') := fun y =>
    Finset.sum_pos (fun c' _ => Real.exp_pos _) Finset.univ_nonempty
  rw [div_coe_coe _ _ (hpos fun c' => r c' * 2 - μ), div_coe_coe _ _ (hpos fun c' => r c' * 2)]
  exact congrArg _ (real_shift (fun c' => r c' * 2) μ c)

end Cert.Softmax

end
-- ==== Proof.Payload.lean ====
/-
  What the kernel body stores, read at one element of its [256, 1024] output block, at the ideal values.

  The body loads a [256, 1024] block of logits `x0` and a [256, 4096] block of noise `x1`.  It re-lays both so that the
  256 groups of a row run along the last axis: logits entry `c` of group `d` (column `4·d + c` of `x0`) sits at
  (row, c, d), and noise entry `c` of draw `k` of group `d` (column `16·d + 4·k + c` of `x1`) at (row, 4·k + c, d).
  For each of the four draws it adds the draw's four noise planes to the logits, doubles, exponentiates, sums the
  four planes and divides by that sum; it keeps the running maximum over the draws and lays the result back out so
  that (row, c, d) lands in column `4·d + c`.  So the stored value at row `b`, column `4·d + c` is the largest over
  the draws of entry `c` of the unshifted softmax of the doubled group `x1[b, 16·d + 4·k + ·] + x0[b, 4·d + ·]`
  (`pay_at`).
-/
import proofs.«108622_j82617990906605_2_alg».proof.Proof.Gen.KernelIdeal.Skeleton
import proofs.«108622_j82617990906605_2_alg».proof.Proof.Softmax
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Softmax

/-- Column of entry `c` of group `d` in a logits block. -/
def lcol (d : Fin 256) (c : Fin 4) : Fin 1024 := ⟨d.val * 4 + c.val, by have := d.isLt; have := c.isLt; omega⟩

/-- Column of entry `c` of the draw at plane offset `o` (`o = 4·k`) of group `d` in a noise block. -/
def gcol (d : Fin 256) (o : Nat) (ho : o + 4 ≤ 16) (c : Fin 4) : Fin 4096 :=
  ⟨d.val * 16 + (o + c.val), by have := d.isLt; have := c.isLt; omega⟩

/-! ## The re-laid operands at (row, plane, group) -/

/-- The re-laid logits at (b, c, d) are the block's column `4·d + c` of row `b`. -/
theorem logits_at (x0 : FVec Ideal S256x1024 .f32) (h1 : S256x1024.ShapeCasts S256x256x4)
    (h2 : S256x256x4.Transposes [0, 2, 1] S256x4x256) (b : Fin 256) (c : Fin 4) (d : Fin 256) :
    transpose S256x4x256 [0, 2, 1] (shapeCast S256x256x4 x0 h1) h2 (ix3 b c d) = x0 (ix2 b (lcol d c)) := by
  refine (transpose_apply _ _ h2 (ix3 b c d) (ix3 b d c) (fun a => ?_)).trans ?_
  · match a with
    | ⟨0, _⟩ => rfl
    | ⟨1, _⟩ => rfl
    | ⟨2, _⟩ => rfl
  · refine shapeCast_apply x0 h1 (ix3 b d c) (ix2 b (lcol d c)) ?_
    rw [Shape.rowMajor_val_two, Shape.rowMajor_val_three]
    show b.val * 1024 + (d.val * 4 + c.val) = (b.val * 256 + d.val) * 4 + c.val
    omega

/-- The re-laid noise, sliced at plane offset `o`, at (b, c, d) is the block's column `16·d + o + c` of row `b`. -/
theorem noise_at (x1 : FVec Ideal S256x4096 .f32) (h0 : S256x4096.ShapeCasts S256x4096)
    (h1 : S256x4096.ShapeCasts S256x256x16) (h2 : S256x256x16.Transposes [0, 2, 1] S256x16x256)
    (o : Nat) (ho : o + 4 ≤ 16) (h3 : S256x16x256.Slices ![0, o, 0] S256x4x256) (b : Fin 256) (c : Fin 4) (d : Fin 256) :
    extractStridedSlice S256x4x256 ![0, o, 0]
        (transpose S256x16x256 [0, 2, 1] (shapeCast S256x256x16 (shapeCast S256x4096 x1 h0) h1) h2) h3 (ix3 b c d)
      = x1 (ix2 b (gcol d o ho c)) := by
  rw [shapeCast_self]
  have hq : o + c.val < 16 := by have := c.isLt; omega
  refine (extractStridedSlice_apply _ _ h3 (ix3 b c d) (ix3 b (⟨o + c.val, hq⟩ : Fin 16) d) (fun a => ?_)).trans ?_
  · match a with
    | ⟨0, _⟩ => show b.val = 0 + b.val; omega
    | ⟨1, _⟩ => rfl
    | ⟨2, _⟩ => show d.val = 0 + d.val; omega
  refine (transpose_apply _ _ h2 (ix3 b (⟨o + c.val, hq⟩ : Fin 16) d) (ix3 b d (⟨o + c.val, hq⟩ : Fin 16)) (fun a => ?_)).trans ?_
  · match a with
    | ⟨0, _⟩ => rfl
    | ⟨1, _⟩ => rfl
    | ⟨2, _⟩ => rfl
  · refine shapeCast_apply x1 h1 (ix3 b d (⟨o + c.val, hq⟩ : Fin 16)) (ix2 b (gcol d o ho c)) ?_
    rw [Shape.rowMajor_val_two, Shape.rowMajor_val_three]
    show b.val * 4096 + (d.val * 16 + (o + c.val)) = (b.val * 256 + d.val) * 16 + (o + c.val)
    omega

/-! ## One draw -/

/-- The reduced index (b, d) with plane `k` put back is (b, k, d). -/
theorem lift_plane (h : S256x4x256.Reduces [1] S256x256) (b d : Fin 256) (k : Fin (S256x4x256.size 1)) :
    h.lift (ix2 b d) k = ix3 b (⟨k.val, k.isLt⟩ : Fin 4) d := by
  funext a; apply Fin.ext
  match a with
  | ⟨0, _⟩ => rfl
  | ⟨1, _⟩ => rfl
  | ⟨2, _⟩ => rfl

/-- Dividing the four planes `E` by their sum, kept as one plane and spread back over the four: at (b, c, d) it is
    `E (b, c, d) / ∑ c', E (b, c', d)`. -/
theorem normalized_at (E : FVec Ideal S256x4x256 .f32) (hr : S256x4x256.Reduces [1] S256x256) (hφ : FKind.Formats .f32)
    (hacc : (0x00000000#32 : BitVec 32) = FKind.add.neutral .f32 hφ) (hsc : S256x256.ShapeCasts S256x1x256)
    (hb : S256x1x256.Broadcasts S256x4x256) (b : Fin 256) (c : Fin 4) (d : Fin 256) :
    divf E (broadcastTo S256x4x256 (shapeCast S256x1x256 (multiReduction .add [1] S256x256 E 0x00000000#32 hr hφ hacc) hsc) hb)
        (ix3 b c d)
      = Ideal.div (E (ix3 b c d)) (∑ c' : Fin 4, E (ix3 b c' d)) := by
  refine congrArg (Ideal.div (E (ix3 b c d))) ?_
  refine (broadcastTo_apply _ hb (ix3 b c d) (ix3 b (0 : Fin 1) d) (fun a => ?_)).trans ?_
  · match a with
    | ⟨0, _⟩ => show b.val = if (256 : Nat) = 1 then 0 else b.val; rw [if_neg (by decide)]
    | ⟨1, _⟩ => show 0 = if (1 : Nat) = 1 then 0 else c.val; rw [if_pos rfl]
    | ⟨2, _⟩ => show d.val = if (256 : Nat) = 1 then 0 else d.val; rw [if_neg (by decide)]
  refine (shapeCast_apply _ hsc (ix3 b (0 : Fin 1) d) (ix2 b d) ?_).trans ?_
  · rw [Shape.rowMajor_val_two, Shape.rowMajor_val_three]
    show b.val * 256 + d.val = (b.val * 1 + 0) * 256 + d.val
    omega
  refine (Ideal.multiReduction_add_single E 0x00000000#32 hr hφ hacc (ix2 b d)).trans ?_
  exact Finset.sum_congr rfl fun k _ => congrArg E (lift_plane hr b d k)

/-- The group a draw works on: noise at plane offset `o` plus logits, entry by entry. -/
def lgrp (x0 : FVec Ideal S256x1024 .f32) (x1 : FVec Ideal S256x4096 .f32) (b d : Fin 256) (o : Nat) (ho : o + 4 ≤ 16) :
    Fin 4 → EReal :=
  fun c => x1 (ix2 b (gcol d o ho c)) + x0 (ix2 b (lcol d c))

/-- One draw at (b, c, d): entry `c` of the unshifted softmax of the doubled group. -/
theorem draw_at (x0 : FVec Ideal S256x1024 .f32) (x1 : FVec Ideal S256x4096 .f32)
    (g1 : S256x1024.ShapeCasts S256x256x4) (g2 : S256x256x4.Transposes [0, 2, 1] S256x4x256)
    (h0 : S256x4096.ShapeCasts S256x4096) (h1 : S256x4096.ShapeCasts S256x256x16)
    (h2 : S256x256x16.Transposes [0, 2, 1] S256x16x256) (o : Nat) (ho : o + 4 ≤ 16)
    (h3 : S256x16x256.Slices ![0, o, 0] S256x4x256)
    (hr : S256x4x256.Reduces [1] S256x256) (hφ : FKind.Formats .f32)
    (hacc : (0x00000000#32 : BitVec 32) = FKind.add.neutral .f32 hφ) (hsc : S256x256.ShapeCasts S256x1x256)
    (hb : S256x1x256.Broadcasts S256x4x256) (b : Fin 256) (c : Fin 4) (d : Fin 256) :
    divf
        (exp (mulf (addf (extractStridedSlice S256x4x256 ![0, o, 0]
              (transpose S256x16x256 [0, 2, 1] (shapeCast S256x256x16 (shapeCast S256x4096 x1 h0) h1) h2) h3)
            (transpose S256x4x256 [0, 2, 1] (shapeCast S256x256x4 x0 g1) g2))
          (broadcast S256x4x256 (Scalar.ofBits (F := Ideal) .f32 0x40000000#32))))
        (broadcastTo S256x4x256 (shapeCast S256x1x256 (multiReduction .add [1] S256x256
          (exp (mulf (addf (extractStridedSlice S256x4x256 ![0, o, 0]
              (transpose S256x16x256 [0, 2, 1] (shapeCast S256x256x16 (shapeCast S256x4096 x1 h0) h1) h2) h3)
            (transpose S256x4x256 [0, 2, 1] (shapeCast S256x256x4 x0 g1) g2))
          (broadcast S256x4x256 (Scalar.ofBits (F := Ideal) .f32 0x40000000#32))))
          0x00000000#32 hr hφ hacc) hsc) hb)
        (ix3 b c d)
      = kerTerm (lgrp x0 x1 b d o ho) c := by
  refine (normalized_at _ hr hφ hacc hsc hb b c d).trans ?_
  have hE : ∀ c' : Fin 4,
      exp (mulf (addf (extractStridedSlice S256x4x256 ![0, o, 0]
              (transpose S256x16x256 [0, 2, 1] (shapeCast S256x256x16 (shapeCast S256x4096 x1 h0) h1) h2) h3)
            (transpose S256x4x256 [0, 2, 1] (shapeCast S256x256x4 x0 g1) g2))
          (broadcast S256x4x256 (Scalar.ofBits (F := Ideal) .f32 0x40000000#32))) (ix3 b c' d)
        = Ideal.exp (lgrp x0 x1 b d o ho c' * Ideal.ofBits .f32 0x40000000#32) := fun c' => by
    show Ideal.exp ((extractStridedSlice S256x4x256 ![0, o, 0]
              (transpose S256x16x256 [0, 2, 1] (shapeCast S256x256x16 (shapeCast S256x4096 x1 h0) h1) h2) h3 (ix3 b c' d)
            + transpose S256x4x256 [0, 2, 1] (shapeCast S256x256x4 x0 g1) g2 (ix3 b c' d))
          * Ideal.ofBits .f32 0x40000000#32) = _
    rw [noise_at x1 h0 h1 h2 o ho h3 b c' d, logits_at x0 g1 g2 b c' d]
    rfl
  unfold kerTerm
  rw [hE c]
  exact congrArg _ (Finset.sum_congr rfl fun c' _ => hE c')

/-! ## The stored value -/

/-- Laying (row, plane, group) back out: column `4·d + c` of row `b` holds the value at (b, c, d). -/
theorem relaid_at (v : FVec Ideal S256x4x256 .f32) (ht : S256x4x256.Transposes [0, 2, 1] S256x256x4)
    (hs : S256x256x4.ShapeCasts S256x1024) (b : Fin 256) (d : Fin 256) (c : Fin 4) :
    shapeCast S256x1024 (transpose S256x256x4 [0, 2, 1] v ht) hs (ix2 b (lcol d c)) = v (ix3 b c d) := by
  refine (shapeCast_apply _ hs (ix2 b (lcol d c)) (ix3 b d c) ?_).trans ?_
  · rw [Shape.rowMajor_val_two, Shape.rowMajor_val_three]
    show (b.val * 256 + d.val) * 4 + c.val = b.val * 1024 + (d.val * 4 + c.val)
    omega
  · refine transpose_apply _ _ ht (ix3 b d c) (ix3 b c d) (fun a => ?_)
    match a with
    | ⟨0, _⟩ => rfl
    | ⟨1, _⟩ => rfl
    | ⟨2, _⟩ => rfl

/-- THE STORED VALUE at row `b`, column `4·d + c`: the largest over the four draws of entry `c` of the unshifted
    softmax of the doubled group. -/
theorem pay_at (x0 : FVec Ideal S256x1024 .f32) (x1 : FVec Ideal S256x4096 .f32) (b : Fin 256) (d : Fin 256) (c : Fin 4) :
    k0_pay1 (F := Ideal) (k0_pay2 (F := Ideal) x0 x1) (ix2 b (lcol d c))
      = max (max (max (kerTerm (lgrp x0 x1 b d 0 (by decide)) c) (kerTerm (lgrp x0 x1 b d 4 (by decide)) c))
          (kerTerm (lgrp x0 x1 b d 8 (by decide)) c)) (kerTerm (lgrp x0 x1 b d 12 (by decide)) c) := by
  unfold k0_pay1
  refine (relaid_at _ _ _ b d c).trans ?_
  unfold k0_pay2
  exact congrArg₂ max (congrArg₂ max (congrArg₂ max
    (draw_at x0 x1 _ _ _ _ _ 0 (by decide) _ _ _ _ _ _ b c d)
    (draw_at x0 x1 _ _ _ _ _ 4 (by decide) _ _ _ _ _ _ b c d))
    (draw_at x0 x1 _ _ _ _ _ 8 (by decide) _ _ _ _ _ _ b c d))
    (draw_at x0 x1 _ _ _ _ _ 12 (by decide) _ _ _ _ _ _ b c d)

end Cert.KernelIdeal.Body

end
-- ==== Proof.Spec.lean ====
/-
  The function both programs compute, stated once over the two argument arrays and literal shapes.

  The logits are a [1024, 8192] array read as 2048 groups of four columns per row: column `4·D + c` is entry `c` of
  group `D`.  The noise is a [1024, 2048, 4, 4] array: row, group, draw `k`, entry `c`.  The group of draw `k` is
  noise plus logits, entry by entry (`grp`).  The result at row `B`, column `4·D + C` is the largest, over the four
  draws, of entry `C` of the softmax of the doubled group (`Softmax.kerTerm`): `ker`, and `out` is `ker` at the
  row, group and entry of an index of the [1024, 8192] result.
-/
import Idealize.ShloMosaic.Lib.ValueIdx
import proofs.«108622_j82617990906605_2_alg».proof.Proof.Softmax

noncomputable section

namespace Cert.Spec

open Idealize.ShloMosaic Idealize.ShloMosaic.ValueIdx Cert.Softmax

/-- The logits' (and the result's) shape. -/
abbrev SL : Shape := ⟨2, ![1024, 8192]⟩
/-- The noise's shape. -/
abbrev SG : Shape := ⟨4, ![1024, 2048, 4, 4]⟩

/-- The column of entry `c` of group `D`. -/
def col (D : Fin 2048) (c : Fin 4) : Fin 8192 := ⟨D.val * 4 + c.val, by have := D.isLt; have := c.isLt; omega⟩

/-- The group of row `B`, group `D`, draw `k`: noise plus logits. -/
def grp (L : SL.Idx → EReal) (Gm : SG.Idx → EReal) (B : Fin 1024) (D : Fin 2048) (k : Fin 4) : Fin 4 → EReal :=
  fun c => Gm (ix4 B D k c) + L (ix2 B (col D c))

/-- The largest over the four draws of entry `C` of the unshifted softmax of the doubled group. -/
def ker (L : SL.Idx → EReal) (Gm : SG.Idx → EReal) (B : Fin 1024) (D : Fin 2048) (C : Fin 4) : EReal :=
  max (max (max (kerTerm (grp L Gm B D 0) C) (kerTerm (grp L Gm B D 1) C)) (kerTerm (grp L Gm B D 2) C))
    (kerTerm (grp L Gm B D 3) C)

/-- Row, group and entry of a result index. -/
def rowOf (i : SL.Idx) : Fin 1024 := ⟨(i 0).val, (i 0).isLt⟩
def grpOf (i : SL.Idx) : Fin 2048 :=
  ⟨(i 1).val / 4, by have h : (i 1).val < 8192 := (i 1).isLt; omega⟩
def entOf (i : SL.Idx) : Fin 4 := ⟨(i 1).val % 4, Nat.mod_lt _ (by decide)⟩

/-- The result array. -/
def out (L : SL.Idx → EReal) (Gm : SG.Idx → EReal) : SL.Idx → EReal :=
  fun i => ker L Gm (rowOf i) (grpOf i) (entOf i)

end Cert.Spec

end
-- ==== Proof.Blocks.lean ====
/-
  From the kernel's blocks to its whole result array, at the ideal values.

  The grid has 4 × 8 points.  At point (p, q) the pipeline hands the body rows `256·p …` and columns `1024·q …` of the
  logits, rows `256·p …` and columns `4096·q …` of the noise flattened to [1024, 32768] (the host reshapes it before
  the call: flat column `16·D + 4·k + c` is entry (D, k, c) of the row), and writes back rows `256·p …`, columns
  `1024·q …` of the result.  Column `1024·q + 4·d + c` of the result is entry `c` of group `D = 256·q + d`, whose logits
  are columns `4·D + ·` and whose noise is flat columns `16·D + ·`: exactly the columns `4·d + ·` and `16·d + ·` of the
  point's two input blocks.  So what the body stores (`Body.pay_at`) is the block of `Spec.out` of the two argument
  arrays (`flushed_eq`); the 32 blocks tile the result (`cover`), so the result array ends as `Spec.out` (`final`).
-/
import proofs.«108622_j82617990906605_2_alg».proof.Proof.Gen.KernelIdeal.Value
import proofs.«108622_j82617990906605_2_alg».proof.Proof.Payload
import proofs.«108622_j82617990906605_2_alg».proof.Proof.Spec
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)
open Cert.Softmax Cert.Spec

variable (m : (ℓ : Loc nD τ sig) → Buf (Elt Ideal) ℓ) (ρ : Dev nD → PrngReg)

theorem zero_offsets : (![0, 0] : Fin 2 → Nat) = fun _ => 0 := funext fun a => by fin_cases a <;> rfl

/-! ## The index maps, decided over the 32 points -/

/-- The three windows move together: block (p, q) of each at the same point, with p ≤ 3 and q ≤ 7. -/
theorem windows_move_together : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block (p, q) of the result is some point's. -/
theorem every_block_is_a_point : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-! ## The two input blocks as elements of the argument arrays -/

/-- The noise as the region finds it: the host's flattening of the argument. -/
theorem noise_entry (c : Dev nD) :
    (V m c main_v0 : S1024x32768.Idx → EReal)
      = shapeCast S1024x32768 (m ((c : Thread nD τ).loc main_arg1)) Facts₀.shapeCasts_S1024x2048x4x4_S1024x32768 := by
  dsimp only [Gen.V, Gen.hostOps0]; after_results; rfl

/-- The flattened noise at (row, flat column) is the argument at the index with the same row-major position. -/
theorem noise_flat (X : S1024x2048x4x4.Idx → EReal) (h : S1024x2048x4x4.ShapeCasts S1024x32768) (J : S1024x32768.Idx)
    (I : S1024x2048x4x4.Idx)
    (hIJ : (((I 0).val * 2048 + (I 1).val) * 4 + (I 2).val) * 4 + (I 3).val = (J 0).val * 32768 + (J 1).val) :
    shapeCast S1024x32768 X h J = X I := by
  refine shapeCast_apply X h J I ?_
  rw [Shape.rowMajor_val_four, Shape.rowMajor_val_two]
  exact hIJ

/-- An element of the logits block at a point is the argument's element at the block's offset. -/
theorem logits_blk (c : Dev nD) (t : Fin cfg0.N) (y : S256x1024.Idx) (I : S1024x8192.Idx)
    (h0 : (I 0).val = win0_0.index t (0 : Fin 2) * 256 + (y 0).val)
    (h1 : (I 1).val = win0_0.index t (1 : Fin 2) * 1024 + (y 1).val) :
    (iblk m c 0 t : FVec Ideal S256x1024 .f32) y = (m ((c : Thread nD τ).loc main_arg0) : S1024x8192.Idx → EReal) I := by
  unfold iblk
  rw [View.read_apply]
  show V m c main_arg0 _ = _
  rw [V_main_arg0]
  congr 1
  funext a
  apply Fin.ext
  match a with
  | ⟨0, _⟩ => show win0_0.index t (0 : Fin 2) * 256 + 1 * (y 0).val = (I 0).val; omega
  | ⟨1, _⟩ => show win0_0.index t (1 : Fin 2) * 1024 + 1 * (y 1).val = (I 1).val; omega

/-- An element of the noise block at a point is the argument's element at the same row-major position as the block's
    offset in the flattened array. -/
theorem noise_blk (c : Dev nD) (t : Fin cfg0.N) (y : S256x4096.Idx) (I : S1024x2048x4x4.Idx)
    (hI : (((I 0).val * 2048 + (I 1).val) * 4 + (I 2).val) * 4 + (I 3).val
      = (win0_1.index t (0 : Fin 2) * 256 + 1 * (y 0).val) * 32768 + (win0_1.index t (1 : Fin 2) * 4096 + 1 * (y 1).val)) :
    (iblk m c 1 t : FVec Ideal S256x4096 .f32) y = (m ((c : Thread nD τ).loc main_arg1) : S1024x2048x4x4.Idx → EReal) I := by
  unfold iblk
  rw [View.read_apply]
  show (V m c main_v0 : S1024x32768.Idx → EReal) _ = _
  rw [noise_entry]
  exact noise_flat _ _ _ I hI

/-! ## What a point writes back -/

/-- Every column of a [256, 1024] block is entry `c` of a group `d`. -/
theorem split_col (y : S256x1024.Idx) : ∃ (b : Fin 256) (d : Fin 256) (c : Fin 4), y = ix2 b (lcol d c) := by
  have h1 : (y 1).val < 1024 := (y 1).isLt
  refine ⟨⟨(y 0).val, (y 0).isLt⟩, ⟨(y 1).val / 4, by omega⟩, ⟨(y 1).val % 4, Nat.mod_lt _ (by decide)⟩, ?_⟩
  funext a; apply Fin.ext
  match a with
  | ⟨0, _⟩ => rfl
  | ⟨1, _⟩ => show (y 1).val = (y 1).val / 4 * 4 + (y 1).val % 4; omega

/-- The group a draw works on at a point, read off the two input blocks, is the group of the argument arrays at the
    row, group and draw the result index `I` names. -/
theorem group_eq (c : Dev nD) (t : Fin cfg0.N) (b d : Fin 256) (cc : Fin 4) (I : S1024x8192.Idx)
    (h0 : (I 0).val = win0_2.index t (0 : Fin 2) * 256 + b.val)
    (h1 : (I 1).val = win0_2.index t (1 : Fin 2) * 1024 + (d.val * 4 + cc.val))
    (k : Fin 4) (o : Nat) (ho : o + 4 ≤ 16) (hok : o = 4 * k.val) :
    lgrp (iblk m c 0 t) (iblk m c 1 t) b d o ho
      = grp (m ((c : Thread nD τ).loc main_arg0)) (m ((c : Thread nD τ).loc main_arg1)) (rowOf I) (grpOf I) k := by
  obtain ⟨e00, e01, e10, e11, hb0, hb1⟩ := windows_move_together t
  funext c'
  have hb := b.isLt; have hd := d.isLt; have hcc := cc.isLt; have hc' := c'.isLt; have hk := k.isLt
  refine congrArg₂ (· + ·)
    (noise_blk m c t (ix2 b (gcol d o ho c')) (ix4 (rowOf I) (grpOf I) k c') ?_)
    (logits_blk m c t (ix2 b (lcol d c')) (ix2 (rowOf I) (col (grpOf I) c')) ?_ ?_)
  · show ((((I 0).val * 2048 + (I 1).val / 4) * 4 + k.val) * 4 + c'.val)
      = (win0_1.index t (0 : Fin 2) * 256 + 1 * b.val) * 32768 + (win0_1.index t (1 : Fin 2) * 4096 + 1 * (d.val * 16 + (o + c'.val)))
    omega
  · show (I 0).val = win0_0.index t (0 : Fin 2) * 256 + b.val
    omega
  · show (I 1).val / 4 * 4 + c'.val = win0_0.index t (1 : Fin 2) * 1024 + (d.val * 4 + c'.val)
    omega

/-- WHAT POINT `t` WRITES BACK is block `t` of `Spec.out` of the two argument arrays. -/
theorem flushed_eq (c : Dev nD) (t : Fin cfg0.N) :
    (dats m 0 c).flushed 2 t = ((cfg0.win 2).blk t).view.read (Elt Ideal)
      (out (m ((c : Thread nD τ).loc main_arg0)) (m ((c : Thread nD τ).loc main_arg1))) := by
  rw [flushed2]
  unfold out0_2
  rw [View.canon_unit_zero zero_offsets]
  simp only [View.ld_unit_zero (S := S256x1024) zero_offsets, View.ld_unit_zero (S := S256x4096) zero_offsets]
  funext y
  obtain ⟨b, d, cc, rfl⟩ := split_col y
  show k0_pay1 (F := Ideal) (k0_pay2 (F := Ideal) (iblk m c 0 t) (iblk m c 1 t)) (ix2 b (lcol d cc))
    = out (m ((c : Thread nD τ).loc main_arg0)) (m ((c : Thread nD τ).loc main_arg1)) (((cfg0.win 2).blk t).view.emb (ix2 b (lcol d cc)))
  refine (pay_at (iblk m c 0 t) (iblk m c 1 t) b d cc).trans ?_
  have h0 : ((((cfg0.win 2).blk t).view.emb (ix2 b (lcol d cc)) : S1024x8192.Idx) 0).val = win0_2.index t (0 : Fin 2) * 256 + b.val := by
    show win0_2.index t (0 : Fin 2) * 256 + 1 * b.val = _; omega
  have h1 : ((((cfg0.win 2).blk t).view.emb (ix2 b (lcol d cc)) : S1024x8192.Idx) 1).val
      = win0_2.index t (1 : Fin 2) * 1024 + (d.val * 4 + cc.val) := by
    show win0_2.index t (1 : Fin 2) * 1024 + 1 * (d.val * 4 + cc.val) = _; omega
  have hent : entOf (((cfg0.win 2).blk t).view.emb (ix2 b (lcol d cc)) : S1024x8192.Idx) = cc := by
    apply Fin.ext
    show ((((cfg0.win 2).blk t).view.emb (ix2 b (lcol d cc)) : S1024x8192.Idx) 1).val % 4 = cc.val
    rw [h1]; have := cc.isLt; omega
  unfold out ker
  rw [hent, group_eq m c t b d cc _ h0 h1 0 0 (by decide) rfl, group_eq m c t b d cc _ h0 h1 1 4 (by decide) rfl,
    group_eq m c t b d cc _ h0 h1 2 8 (by decide) rfl, group_eq m c t b d cc _ h0 h1 3 12 (by decide) rfl]

/-! ## The blocks tile the result -/

/-- An index of the result is in point `t`'s block iff each coordinate is in the block's range on its axis. -/
theorem in_block_iff (t : Fin cfg0.N) (i : S1024x8192.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v1).slice (win0_2.rect t)).set ↔ _
  rw [View.set_slice_whole, Rect.mem_set_unit]
  exact Iff.rfl

/-- Row `r`, column `j` of the result is in the block of the point (r / 256, j / 1024). -/
theorem cover (i : S1024x8192.Idx) :
    ∃ t : Fin cfg0.N, (cfg0.win 2).flush t = true ∧ i ∈ ((cfg0.win 2).blk t).view.set := by
  have hi0 : (i 0).val < 1024 := (i 0).isLt
  have hi1 : (i 1).val < 8192 := (i 1).isLt
  obtain ⟨t, ht⟩ := every_block_is_a_point ⟨(i 0).val / 256, by omega⟩ ⟨(i 1).val / 1024, by omega⟩
  have q0 : win0_2.index t (0 : Fin 2) = (i 0).val / 256 := congrFun ht 0
  have q1 : win0_2.index t (1 : Fin 2) = (i 1).val / 1024 := congrFun ht 1
  refine ⟨t, flush0_2 t, ?_⟩
  rw [in_block_iff]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1024 ≤ (i 1).val ∧ (i 1).val < win0_2.index t (1 : Fin 2) * 1024 + 1024
    omega

/-- THE RESULT ARRAY after the run is `Spec.out` of the two argument arrays. -/
theorem final (c : Dev nD) :
    (dats m 0 c).arrAt 2 cfg0.N = out (m ((c : Thread nD τ).loc main_arg0)) (m ((c : Thread nD τ).loc main_arg1)) :=
  (dats m 0 c).arrAt_eq_of_cover 2 (out (m ((c : Thread nD τ).loc main_arg0)) (m ((c : Thread nD τ).loc main_arg1)))
    (fun t _ => flushed_eq m c t) cover

/-- The kernel's run, read: the result at `Spec.out` of the arguments, the arguments unchanged. -/
theorem run : θ_run defs (onTc (τ := τ) (main (F := Ideal))) ⟨m, fun _ => 0, ρ⟩ fun r => ∀ c : Dev nD,
      r.2.mem ((c : Thread nD τ).loc main_v1) = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefValue.lean ====
/-
  The reference, read at one element of its result, at the ideal values.

  The reference reshapes the logits to (row, group, 1, entry), spreads them over the four draws and adds the noise:
  at (B, D, k, c) that is entry `c` of the group `Spec.grp … B D k`.  It divides by one half (`noisy_at`), takes each
  group's maximum from −∞ (and once more against −∞: `shift_at`), subtracts it, exponentiates (`exp_at`), sums each
  group from 0 (`den_at`) and divides (`term_at`): entry `c` of the shifted softmax, `Softmax.refTerm`.  The last
  two operations take the maximum from −∞ over the draws (`drawmax_at`) and flatten (row, group, entry) to
  (row, 4·group + entry) (`result_at`).
-/
import proofs.«108622_j82617990906605_2_alg».proof.Proof.Gen.ReferenceIdeal.Read
import proofs.«108622_j82617990906605_2_alg».proof.Proof.Spec
import Idealize.ShloMosaic.Lib.ValueIdx
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Softmax Cert.Spec

variable (L : SL.Idx → EReal) (Gm : SG.Idx → EReal)

/-- The sum of noise and spread logits, divided by one half, at (B, D, k, c). -/
theorem noisy_at (B : Fin 1024) (D : Fin 2048) (k c : Fin 4) :
    val_main_v4 (F := Ideal) L Gm (ix4 B D k c) = Ideal.div (grp L Gm B D k c) (Ideal.ofBits .f32 0x3F000000#32) := by
  rw [val_main_v4_apply, val_main_v2_apply, val_main_v1_apply, val_main_v0_apply, val_main_v3_apply, val_main_cst_apply]
  have e : idx_main_v0 (idx_main_v1 (ix4 B D k c)) = ix2 B (col D c) := by
    funext a; apply Fin.ext
    have hB := B.isLt; have hD := D.isLt; have hc := c.isLt
    match a with
    | ⟨0, _⟩ => show (((B.val * 2048 + D.val) * 1 + 0) * 4 + c.val) / 8192 = B.val; omega
    | ⟨1, _⟩ => show (((B.val * 2048 + D.val) * 1 + 0) * 4 + c.val) % 8192 = D.val * 4 + c.val; omega
  rw [e]
  rfl

/-- Putting entry `c'` back into a (row, group, draw) index. -/
theorem lift_entry (h : S1024x2048x4x4.Reduces [3] S1024x2048x4) (B : Fin 1024) (D : Fin 2048) (k : Fin 4)
    (c' : Fin (S1024x2048x4x4.size 3)) : h.lift (ix3 B D k) c' = ix4 B D k (⟨c'.val, c'.isLt⟩ : Fin 4) := by
  funext a; apply Fin.ext
  match a with
  | ⟨0, _⟩ => rfl
  | ⟨1, _⟩ => rfl
  | ⟨2, _⟩ => rfl
  | ⟨3, _⟩ => rfl

/-- Putting draw `k` back into a (row, group, entry) index. -/
theorem lift_draw (h : S1024x2048x4x4.Reduces [2] S1024x2048x4) (B : Fin 1024) (D : Fin 2048) (c : Fin 4)
    (k : Fin (S1024x2048x4x4.size 2)) : h.lift (ix3 B D c) k = ix4 B D (⟨k.val, k.isLt⟩ : Fin 4) c := by
  funext a; apply Fin.ext
  match a with
  | ⟨0, _⟩ => rfl
  | ⟨1, _⟩ => rfl
  | ⟨2, _⟩ => rfl
  | ⟨3, _⟩ => rfl

/-- The group's maximum from −∞, and once more against −∞: the shift. -/
theorem shift_at (B : Fin 1024) (D : Fin 2048) (k : Fin 4) :
    val_main_v7 (F := Ideal) L Gm (ix3 B D k) = refShift (grp L Gm B D k) := by
  have h : S1024x2048x4x4.Reduces [3] S1024x2048x4 := by decide
  rw [val_main_v7_apply, val_main_v6_apply, val_main_cst_1_apply]
  unfold refShift
  refine congrArg (max (Ideal.ofBits .f32 0xFF800000#32)) ?_
  unfold val_main_v5
  refine (Host.reduce_eq_fold_single FloatOps.maximumf _ _ _ h _ (ix3 B D k)).trans ?_
  have hf : (val_main_v4 (F := Ideal) L Gm ∘ h.lift (ix3 B D k))
      = fun c' : Fin 4 => Ideal.div (grp L Gm B D k c') (Ideal.ofBits .f32 0x3F000000#32) :=
    funext fun c' => by
      show val_main_v4 (F := Ideal) L Gm (h.lift (ix3 B D k) c') = _
      rw [lift_entry h B D k c']
      exact noisy_at L Gm B D k _
  exact congrArg (fun f => Finset.fold max (Ideal.ofBits .f32 0xFF800000#32) f (Finset.univ : Finset (Fin 4))) hf

/-- The exponential of the shifted entry. -/
theorem exp_at (B : Fin 1024) (D : Fin 2048) (k c : Fin 4) :
    val_main_v11 (F := Ideal) L Gm (ix4 B D k c)
      = Ideal.exp (Ideal.div (grp L Gm B D k c) (Ideal.ofBits .f32 0x3F000000#32) - refShift (grp L Gm B D k)) := by
  rw [val_main_v11_apply, val_main_v10_apply, val_main_v9_apply, val_main_v8_apply, noisy_at]
  have e : idx_main_v8 (idx_main_v9 (ix4 B D k c)) = ix3 B D k := by
    funext a; apply Fin.ext
    match a with
    | ⟨0, _⟩ => rfl
    | ⟨1, _⟩ => rfl
    | ⟨2, _⟩ => rfl
  rw [e, shift_at]
  rfl

/-- The group's sum of exponentials, from 0. -/
theorem den_at (B : Fin 1024) (D : Fin 2048) (k c : Fin 4) :
    val_main_v14 (F := Ideal) L Gm (ix4 B D k c)
      = Ideal.ofBits .f32 0x00000000#32 + ∑ c' : Fin 4,
          Ideal.exp (Ideal.div (grp L Gm B D k c') (Ideal.ofBits .f32 0x3F000000#32) - refShift (grp L Gm B D k)) := by
  rw [val_main_v14_apply, val_main_v13_apply, val_main_v12_apply, val_main_cst_2_apply]
  refine congrArg (Ideal.ofBits .f32 0x00000000#32 + ·) (Finset.sum_congr rfl fun c' _ => ?_)
  have e : idx_main_v12 (idx_main_v13 (idx_main_v14 (ix4 B D k c))) c' = ix4 B D k c' := by
    funext a; apply Fin.ext
    match a with
    | ⟨0, _⟩ => rfl
    | ⟨1, _⟩ => rfl
    | ⟨2, _⟩ => rfl
    | ⟨3, _⟩ => rfl
  rw [e]
  exact exp_at L Gm B D k c'

/-- Entry `c` of the shifted softmax of the group. -/
theorem term_at (B : Fin 1024) (D : Fin 2048) (k c : Fin 4) :
    val_main_v15 (F := Ideal) L Gm (ix4 B D k c) = refTerm (grp L Gm B D k) c := by
  rw [val_main_v15_apply, exp_at, den_at]
  rfl

/-- The maximum from −∞ over the draws. -/
theorem drawmax_at (B : Fin 1024) (D : Fin 2048) (c : Fin 4) :
    val_main_v16 (F := Ideal) L Gm (ix3 B D c)
      = (Finset.univ : Finset (Fin 4)).fold max (Ideal.ofBits .f32 0xFF800000#32) (fun k => refTerm (grp L Gm B D k) c) := by
  have h : S1024x2048x4x4.Reduces [2] S1024x2048x4 := by decide
  unfold val_main_v16
  refine (Host.reduce_eq_fold_single FloatOps.maximumf _ _ _ h _ (ix3 B D c)).trans ?_
  have hf : (val_main_v15 (F := Ideal) L Gm ∘ h.lift (ix3 B D c)) = fun k : Fin 4 => refTerm (grp L Gm B D k) c :=
    funext fun k => by
      show val_main_v15 (F := Ideal) L Gm (h.lift (ix3 B D c) k) = _
      rw [lift_draw h B D c k]
      exact term_at L Gm B D _ c
  exact congrArg (fun f => Finset.fold max (Ideal.ofBits .f32 0xFF800000#32) f (Finset.univ : Finset (Fin 4))) hf

/-- THE REFERENCE'S RESULT at an index: the maximum from −∞ over the draws of the entry of the shifted softmax. -/
theorem result_at (i : SL.Idx) :
    val_main_v17 (F := Ideal) L Gm i
      = (Finset.univ : Finset (Fin 4)).fold max (Ideal.ofBits .f32 0xFF800000#32)
          (fun k => refTerm (grp L Gm (rowOf i) (grpOf i) k) (entOf i)) := by
  rw [val_main_v17_apply]
  have e : idx_main_v17 i = ix3 (rowOf i) (grpOf i) (entOf i) := by
    funext a; apply Fin.ext
    have h0 : (i 0).val < 1024 := (i 0).isLt
    have h1 : (i 1).val < 8192 := (i 1).isLt
    match a with
    | ⟨0, _⟩ => show ((i 0).val * 8192 + (i 1).val) / 8192 = (i 0).val; omega
    | ⟨1, _⟩ => show ((i 0).val * 8192 + (i 1).val) / 4 % 2048 = (i 1).val / 4; omega
    | ⟨2, _⟩ => show ((i 0).val * 8192 + (i 1).val) % 4 = (i 1).val % 4; omega
  rw [e]
  exact drawmax_at L Gm _ _ _

/-- On real arguments the reference's result is the common function `Spec.out`: entry by entry the shifted softmax is
    the unshifted one, and the maximum from −∞ over the draws is their pairwise running maximum. -/
theorem result_eq_out (hL : ∀ i, ∃ r : ℝ, L i = (r : EReal)) (hG : ∀ i, ∃ r : ℝ, Gm i = (r : EReal)) :
    val_main_v17 (F := Ideal) L Gm = out L Gm := by
  funext i
  rw [result_at]
  unfold out ker
  refine Eq.trans ?_ (max4_eq_fold (fun k => kerTerm (grp L Gm (rowOf i) (grpOf i) k) (entOf i))).symm
  refine congrArg (fun f => Finset.fold max (Ideal.ofBits .f32 0xFF800000#32) f (Finset.univ : Finset (Fin 4))) ?_
  funext k
  refine refTerm_eq_kerTerm _ (fun c => ?_) _
  obtain ⟨r, hr⟩ := hG (ix4 (rowOf i) (grpOf i) k c)
  obtain ⟨s, hs⟩ := hL (ix2 (rowOf i) (col (grpOf i) c))
  exact ⟨r + s, by show Gm _ + L _ = _; rw [hr, hs, EReal.coe_add]⟩

end Cert.ReferenceIdeal.RefValue

end
-- ==== Proof.Finite.lean ====
/-
  The precondition, opened: every entry of both argument arrays is a real number.

  The precondition is the conjunction of two tests, one per array: every entry's absolute value is below +∞.  An
  extended real whose absolute value `max x (−x)` is below `⊤` is neither `⊥` nor `⊤`, so it is a real.
-/
import proofs.«108622_j82617990906605_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Hand

open Cert.Pre_finite_inputs Idealize.ShloMosaic

instance : Subsingleton S_.Idx := ⟨fun a b => funext fun d => d.elim0⟩

/-- An extended real whose absolute value compares below the pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition both arrays hold reals. -/
theorem finite_of_pre [Facts] (x0 : FVec Ideal S1024x8192 .f32) (x1 : FVec Ideal S1024x2048x4x4 .f32)
    (h : fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [fn] at h'
  obtain ⟨ha, hb⟩ := IntOp.andi_eq_one.mp h'
  exact ⟨fun i => real_of_abs_lt _ (Host.reduce_andi_all _ _ _ _ _ ha i),
    fun i => real_of_abs_lt _ (Host.reduce_andi_all _ _ _ _ _ hb i)⟩

end Cert.Pre_finite_inputs.Hand

end
-- ==== Proof.lean ====
/-
  The proof of `Cert.Claim`: a Gumbel-softmax sampling kernel against its jnp reference, over the extended reals.

  Both programs compute, for each row, each group of four logits and each of four draws of noise, the softmax of
  (noise + logits) / ½ within the group, and keep the largest value over the draws.  The kernel doubles instead of
  dividing by one half, takes the softmax without subtracting the group's maximum, and keeps a pairwise running
  maximum over the draws; the reference subtracts the maximum, sums from 0 and takes the maximum from −∞.  On real
  inputs these are one function (`Softmax.refTerm_eq_kerTerm`, `Softmax.max4_eq_fold`); the precondition says the
  inputs are real (`Finite.lean`).  The kernel's result array is `Spec.out` of the arguments on any inputs
  (`Payload.lean`: what the body stores; `Blocks.lean`: the 32 blocks tile the result); the reference's result is
  read operation by operation in `RefValue.lean`.  The three frames are the generated ones; the idealization rewrote
  nothing, so `preserves` is `True`.
-/
import proofs.«108622_j82617990906605_2_alg».proof.Defs
import proofs.«108622_j82617990906605_2_alg».proof.Proof.Gen.Kernel
import proofs.«108622_j82617990906605_2_alg».proof.Proof.Gen.Kernel.Skeleton
import proofs.«108622_j82617990906605_2_alg».proof.Proof.Gen.Kernel.Launch
import proofs.«108622_j82617990906605_2_alg».proof.Proof.Gen.Kernel.Points
import proofs.«108622_j82617990906605_2_alg».proof.Proof.Gen.Kernel.Frame
import proofs.«108622_j82617990906605_2_alg».proof.Proof.Gen.KernelIdeal
import proofs.«108622_j82617990906605_2_alg».proof.Proof.Gen.KernelIdeal.Skeleton
import proofs.«108622_j82617990906605_2_alg».proof.Proof.Gen.KernelIdeal.Launch
import proofs.«108622_j82617990906605_2_alg».proof.Proof.Gen.KernelIdeal.Points
import proofs.«108622_j82617990906605_2_alg».proof.Proof.Gen.KernelIdeal.Frame
import proofs.«108622_j82617990906605_2_alg».proof.Proof.Gen.ReferenceIdeal
import proofs.«108622_j82617990906605_2_alg».proof.Proof.Gen.Pre_finite_inputs
import proofs.«108622_j82617990906605_2_alg».proof.Proof.Gen.KernelIdeal.Value
import proofs.«108622_j82617990906605_2_alg».proof.Proof.Gen.ReferenceIdeal.Run
import proofs.«108622_j82617990906605_2_alg».proof.Proof.Gen.ReferenceIdeal.Read
import proofs.«108622_j82617990906605_2_alg».proof.Proof.Blocks
import proofs.«108622_j82617990906605_2_alg».proof.Proof.RefValue
import proofs.«108622_j82617990906605_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Spec.out` of the arguments: the kernel's on any inputs, the reference's because
    the precondition makes the arguments real, where the shifted softmax is the unshifted one. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨hL, hG⟩ := Cert.Pre_finite_inputs.Hand.finite_of_pre _ _ (hpre c)
  exact Cert.ReferenceIdeal.RefValue.result_eq_out _ _ hL hG

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
